-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_d_k" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S4096x4096 : Shape := ⟨2, ![4096, 4096]⟩
abbrev S256x1024 : Shape := ⟨2, ![256, 1024]⟩
abbrev S256x4096 : Shape := ⟨2, ![256, 4096]⟩
abbrev S1024x4096 : Shape := ⟨2, ![1024, 4096]⟩
abbrev S256 : Shape := ⟨1, ![256]⟩
abbrev S256x1 : Shape := ⟨2, ![256, 1]⟩
abbrev S4096x32x32 : Shape := ⟨3, ![4096, 32, 32]⟩

abbrev nBuf : Space → Nat
  | .hbm => 19
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x4096, .f32⟩
  | .hbm, ⟨17, _⟩ => ⟨S4096x1024, .f32⟩
  | .hbm, ⟨18, _⟩ => ⟨S4096x32x32, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S256x1024, .bf16⟩
  | .local _ .vmem, ⟨15, _⟩ => ⟨S256x1024, .bf16⟩
  | .local _ .vmem, ⟨16, _⟩ => ⟨S4096x1024, .bf16⟩
  | .local _ .vmem, ⟨17, _⟩ => ⟨S4096x1024, .bf16⟩
  | .local _ .vmem, ⟨18, _⟩ => ⟨S256x4096, .f32⟩
  | .local _ .vmem, ⟨19, _⟩ => ⟨S256x4096, .f32⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  shapeCasts_S4096x1024_S4096x32x32 : S4096x1024.ShapeCasts S4096x32x32
  dot_S512x1024_S1024x1024_S512x1024_1_0_0_1_n_n_wf : DotDims.WF S512x1024 S1024x1024 S512x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S4096x1024.size a
  hwx1_4 : ∀ i : grid1.Coords, EltTy.bits .f32 = 32 ∨ (Rect.block (s := S4096x1024) S256x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S256x4096.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4096x32x32 : Shape := ⟨3, ![4096, 32, 32]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x32x32, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S4096x1024_S4096x32x32 : S4096x1024.ShapeCasts S4096x32x32
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«121798_j6768868458538_1_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibTileSoftmax.lean ====
/-
  Row tiles through a row-wise softmax, and the host's spelling of the same columns.

  With `IsTile r0 hr x X` (the T × C array x is rows [r0, r0 + T) of the M × C array X):
  * the maximum along each row of a tile from a starting value, kept as a T × 1 column, is the tile of the whole
    array's column of row maxima (`rowMax`, the fold of `max` over the row from that value) — the companion of the
    row sums kept as a column;
  * a difference and an exponential, entry by entry, keep tiles.
  On the whole array's side the host writes a column of row sums (or maxima) as a reduce over the second axis followed
  by a broadcast of the length-M vector along axis 0 into M × 1: that IS the column `rowSum` (or `rowMax`), whatever the
  initial value's rank-0 spelling, and a maximum taken once more with the starting value changes nothing.
-/
import proofs.«121798_j6768868458538_1_alg».proof.Proof.LibTileMore
import proofs.«121798_j6768868458538_1_alg».proof.Proof.LibRowOps

noncomputable section

namespace Cert.Tile

open Idealize.ShloMosaic Idealize.ShloMosaic.ValueIdx

/-- The maxima along the rows of an M × C array, each the fold of `max` over the row from `b`, kept as an M × 1 column. -/
def rowMax {M C : Nat} (b : EReal) (X : (⟨2, ![M, C]⟩ : Shape).Idx → EReal) : (⟨2, ![M, 1]⟩ : Shape).Idx → EReal :=
  fun i => (Finset.univ : Finset (Fin C)).fold max b (fun l => X (ix2 (n0 := M) (n1 := C) (i 0) l))

/-- Row a of the column of row maxima is the fold of `max` over row a. -/
theorem rowMax_apply {M C : Nat} (b : EReal) (X : (⟨2, ![M, C]⟩ : Shape).Idx → EReal) (a : Fin M) (q : Fin 1) :
    rowMax b X (ix2 a q) = (Finset.univ : Finset (Fin C)).fold max b (fun l => X (ix2 a l)) := rfl

variable {T M : Nat} {r0 : Nat} {hr : r0 + T ≤ M}

/-- The maximum along each row of a tile, kept as a T × 1 column, is the tile of the whole array's row maxima kept as
    an M × 1 column: row r0 + p of X is row p of x, entry by entry, and both folds start from the accumulator's value. -/
theorem laneMax {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.maximumf.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .maximumf [1] ⟨1, ![T]⟩ x acc h hφ hacc) hc)
      (rowMax (Ideal.ofBits .f32 acc) X) := by
  intro p q
  rw [RowOps.shapeCast_a_a1_apply _ hc p q, RowOps.rowMax_apply x acc h hφ hacc p, rowMax_apply]
  exact congrArg (fun f => Finset.fold max (Ideal.ofBits .f32 acc) f (Finset.univ : Finset (Fin C))) (funext fun k => hx p k)

section Pointwise
variable {C : Nat} {φ : FTy} {x y : (⟨2, ![T, C]⟩ : Shape).Idx → EReal} {X Y : (⟨2, ![M, C]⟩ : Shape).Idx → EReal}

/-- A kernel's vector difference, at the ideal values, subtracts entry by entry. -/
theorem vSub (hx : IsTile r0 hr x X) (hy : IsTile r0 hr y Y) :
    IsTile r0 hr (subf (F := Ideal) (φ := φ) x y) (fun i => X i - Y i) :=
  map₂ (fun a b => a - b) hx hy

/-- A kernel's vector exponential, at the ideal values, is the exponential entry by entry. -/
theorem vExp (hx : IsTile r0 hr x X) :
    IsTile r0 hr (exp (F := Ideal) (φ := φ) x) (fun i => Ideal.exp (X i)) :=
  map Ideal.exp hx

/-- A kernel's product with a splat of one value multiplies every entry by it. -/
theorem vScale (v : EReal) (hx : IsTile r0 hr x X) :
    IsTile r0 hr (mulf (F := Ideal) (φ := φ) x (broadcast ⟨2, ![T, C]⟩ v)) (fun i => X i * v) :=
  map (fun a => a * v) hx

end Pointwise

/-- A tile is a tile of anything the whole array equals. -/
theorem IsTile.congr {C : Nat} {x : (⟨2, ![T, C]⟩ : Shape).Idx → EReal} {X X' : (⟨2, ![M, C]⟩ : Shape).Idx → EReal}
    (hx : IsTile r0 hr x X) (e : X = X') : IsTile r0 hr x X' := e ▸ hx

/-! ## The host's spelling of the two columns -/

/-- A length-M vector broadcast along axis 0 into an M × 1 column reads, at (a, q), the vector at a. -/
theorem colOfVec_apply {M : Nat} (v : (⟨1, ![M]⟩ : Shape).Idx → EReal)
    (g : (⟨1, ![M]⟩ : Shape).BroadcastsInDim ⟨2, ![M, 1]⟩ ![0]) (a : Fin M) (q : Fin 1) :
    broadcastInDim ⟨2, ![M, 1]⟩ ![0] g v (ix2 a q) = v (ix1 a) := by
  refine broadcastInDim_apply _ g v (ix2 a q) (ix1 a) fun ax => ?_
  match ax with
  | ⟨0, _⟩ =>
    show a.val = if M = 1 then 0 else a.val
    split
    · have := a.isLt; omega
    · rfl

/-- The reduced index `a` of an M × C array with the coordinate `k` of the second axis put back is (a, k). -/
theorem lift_row2 {M C : Nat} (h : (⟨2, ![M, C]⟩ : Shape).Reduces [1] (⟨1, ![M]⟩ : Shape)) (a : Fin M)
    (k : Fin ((⟨2, ![M, C]⟩ : Shape).size 1)) : h.lift (ix1 a) k = ix2 a (⟨k.val, k.isLt⟩ : Fin C) := by
  funext c; apply Fin.ext
  fin_cases c <;> rfl

/-- The host's sum over the second axis from the initial value 0, kept as a column, is the column of row sums. -/
theorem hostRowSumCol {M C : Nat} {u : Shape} (X : FVec Ideal ⟨2, ![M, C]⟩ .f32) (init : u.Idx → Ideal .f32)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = 0)
    (g : (⟨1, ![M]⟩ : Shape).BroadcastsInDim ⟨2, ![M, 1]⟩ ![0]) :
    broadcastInDim ⟨2, ![M, 1]⟩ ![0] g (Host.reduceAdd X init h' hu) = rowSum X := by
  funext i
  obtain ⟨a, q, rfl⟩ : ∃ (a : Fin M) (q : Fin 1), i = ix2 a q := ⟨i 0, i 1, eq_ix2 i⟩
  rw [colOfVec_apply, rowSum_apply]
  show Ideal.hostReduceAdd h' X (init (Shape.Idx.first hu)) (ix1 a) = _
  rw [Ideal.hostReduceAdd_single h' h, hinit, zero_add]
  exact Finset.sum_congr rfl fun k _ => congrArg X (lift_row2 h a k)

/-- The host's maximum over the second axis from the initial value b, taken once more with b and kept as a column, is
    the column of row maxima from b. -/
theorem hostRowMaxCol {M C : Nat} {u : Shape} (X : FVec Ideal ⟨2, ![M, C]⟩ .f32) (init : u.Idx → Ideal .f32) (b : EReal)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = b) (w : FVec Ideal ⟨1, ![M]⟩ .f32) (hw : ∀ a, w a = b)
    (g : (⟨1, ![M]⟩ : Shape).BroadcastsInDim ⟨2, ![M, 1]⟩ ![0]) :
    broadcastInDim ⟨2, ![M, 1]⟩ ![0] g (maximumf (F := Ideal) w (Host.reduce FloatOps.maximumf X init h' hu)) = rowMax b X := by
  funext i
  obtain ⟨a, q, rfl⟩ : ∃ (a : Fin M) (q : Fin 1), i = ix2 a q := ⟨i 0, i 1, eq_ix2 i⟩
  rw [colOfVec_apply, rowMax_apply]
  show max (w (ix1 a)) (Host.reduce FloatOps.maximumf X init h' hu (ix1 a)) = _
  rw [hw, Host.reduce_eq_fold_single FloatOps.maximumf X init h' h hu (ix1 a), hinit]
  have e : (X ∘ h.lift (ix1 a)) = fun k => X (ix2 a (⟨k.val, k.isLt⟩ : Fin C)) := funext fun k => congrArg X (lift_row2 h a k)
  rw [e]
  exact RowOps.max_fold_max _ b _

end Cert.Tile

end
-- ==== Proof.Spec.lean ====
/-
  Single-head self-attention over 4096 rows, as ONE function of the seven argument arrays.

  Q, K, V are dense layers of the same input, x · W + b with the bias repeated down the rows. The scores are
  (Q · Kᵀ) · c for the constant c = 2097152 / 11863283; each row is exponentiated after its own maximum is subtracted
  and divided by the row's sum of exponentials (the attention weights); the output is weights · V, its 1024 columns
  viewed as 32 × 32.

  The one law used: the reference divides the scores by the f32 number D = 11863283 / 2²¹ (the word 0x40B504F3),
  and on every extended real x, x / D = x · (1 / D) with 1 / D = 2097152 / 11863283 = c. Sums, maxima, the
  exponential and the row quotient are the same operations on both sides, so nothing else is needed, and no
  finiteness of the inputs.
-/
import proofs.«121798_j6768868458538_1_alg».proof.Proof.LibTileSoftmax

noncomputable section

namespace Cert.Attn

open Idealize.ShloMosaic Idealize.ShloMosaic.ValueIdx Cert.Tile

/-- 4096 rows of 1024 features: the input, and each of Q, K, V. -/
abbrev SX : Shape := ⟨2, ![4096, 1024]⟩
/-- A weight matrix. -/
abbrev SW : Shape := ⟨2, ![1024, 1024]⟩
/-- A bias. -/
abbrev SB : Shape := ⟨1, ![1024]⟩
/-- The scores and the attention weights: rows × rows. -/
abbrev SA : Shape := ⟨2, ![4096, 4096]⟩
/-- K transposed. -/
abbrev SKt : Shape := ⟨2, ![1024, 4096]⟩
/-- The output: each row's 1024 columns as 32 × 32. -/
abbrev SO : Shape := ⟨3, ![4096, 32, 32]⟩

theorem bidBias : SB.BroadcastsInDim ⟨2, ![1, 1024]⟩ (![1] : Fin 1 → Fin 2) := by decide
theorem tKt : SX.Transposes [1, 0] SKt := by decide
theorem cO : SX.ShapeCasts SO := by decide

/-- The reciprocal of the reference's divisor D = 11863283 / 2²¹. -/
def c : EReal := ((2097152 / 11863283 : ℝ) : EReal)

/-- The starting value of a row maximum: the f32 word of −∞, kept as a word (it is the same word on both sides). -/
abbrev negInf : EReal := Ideal.ofBits .f32 0xFF800000#32

/-- A dense layer: x · W + b, the bias repeated down the rows. -/
def dense (X : SX.Idx → EReal) (W : SW.Idx → EReal) (b : SB.Idx → EReal) : SX.Idx → EReal :=
  fun i => Ideal.matmul (DotDims.plain 4096 1024 1024) X W (fun _ => 0) i
    + broadcastInDim SX ![0, 1] (bidRow 4096 1024) (broadcastInDim ⟨2, ![1, 1024]⟩ ![1] bidBias b) i

/-- The scaled scores (Q · Kᵀ) · c. -/
def scores (Q K : SX.Idx → EReal) : SA.Idx → EReal :=
  fun i => Ideal.matmul (DotDims.plain 4096 1024 4096) Q (transpose SKt [1, 0] K tKt) (fun _ => 0) i * c

/-- exp (s − the row's maximum), entry by entry. -/
def expShift (S : SA.Idx → EReal) : SA.Idx → EReal :=
  fun i => Ideal.exp (S i - broadcastInDim SA ![0, 1] (bidCol 4096 4096) (rowMax negInf S) i)

/-- The row-wise softmax: each shifted exponential over its row's sum. -/
def softmax (S : SA.Idx → EReal) : SA.Idx → EReal :=
  fun i => Ideal.div (expShift S i) (broadcastInDim SA ![0, 1] (bidCol 4096 4096) (rowSum (expShift S)) i)

/-- weights · V. -/
def mix (A : SA.Idx → EReal) (V : SX.Idx → EReal) : SX.Idx → EReal :=
  Ideal.matmul (DotDims.plain 4096 4096 1024) A V (fun _ => 0)

/-- The attention weights of the seven arguments (V's two do not enter). -/
def weights (x : SX.Idx → EReal) (wq : SW.Idx → EReal) (bq : SB.Idx → EReal) (wk : SW.Idx → EReal) (bk : SB.Idx → EReal) :
    SA.Idx → EReal :=
  softmax (scores (dense x wq bq) (dense x wk bk))

/-- The attention output, its columns viewed 32 × 32. -/
def output (x : SX.Idx → EReal) (wq : SW.Idx → EReal) (bq : SB.Idx → EReal) (wk : SW.Idx → EReal) (bk : SB.Idx → EReal)
    (wv : SW.Idx → EReal) (bv : SB.Idx → EReal) : SO.Idx → EReal :=
  shapeCast SO (mix (weights x wq bq wk bk) (dense x wv bv)) cO

/-- The reference's divisor, the f32 word 0x40B504F3, is the real 11863283 / 2²¹. -/
theorem divisor_val : Ideal.ofBits .f32 0x40B504F3#32 = ((11863283 / 2097152 : ℝ) : EReal) := by
  simp [Ideal.ofBits, Ideal.ieee, -EReal.coe_mul]; norm_num

/-- Dividing by D is multiplying by c, on every extended real. -/
theorem div_divisor (x : EReal) : Ideal.div x (Ideal.ofBits .f32 0x40B504F3#32) = x * c := by
  rw [divisor_val, Ideal.div_coe (by norm_num : (11863283 / 2097152 : ℝ) ≠ 0)]
  unfold c
  congr 2
  norm_num

end Cert.Attn

end
-- ==== Proof.Payload.lean ====
/-
  What each kernel body computes from its blocks, at the ideal values, as a row tile of the specification.

  The projection kernel's three stored values are, for a tile x of rows [r0, r0 + 512) of the input, the same rows of the
  dense layers x · W + b (the weights and the 1 × 1024 bias rows are whole arrays). The attention kernel's first stored
  value is, for a tile q of rows [r0, r0 + 256) of Q, the same rows of softmax ((Q · Kᵀ) · c): the product with Kᵀ reads
  only the tile's rows of Q, the maximum and the sum run along a row, and the named constant is c. Its second stored
  value is those rows of weights · V. Changes of float format are the identity.
-/
import proofs.«121798_j6768868458538_1_alg».proof.Proof.Gen.KernelIdeal.Skeleton
import proofs.«121798_j6768868458538_1_alg».proof.Proof.Spec

noncomputable section

namespace Cert.KernelIdeal.Payload

open Idealize.ShloMosaic Idealize.ShloMosaic.ValueIdx Cert.Tile Cert.Attn Cert.KernelIdeal Cert.KernelIdeal.Gen

/-- The kernel's named scale is c, by the certificate's table. -/
theorem named_c : Named.named (F := Ideal) κ "inv_d_k" (φ := .f32) 0x3E3504F3#32 = c :=
  IdealRules.named_const.ideal_named_scalar _ _ _ _ rfl

variable {r0 : Nat}

/-- A dense layer's rows: the tile times the weights plus the bias row, against x · W + b. -/
theorem dense_rows (hr : r0 + 512 ≤ 4096) (x : Vec Ideal S512x1024 .f32) (w : Vec Ideal S1024x1024 .bf16)
    (b2 : Vec Ideal S1x1024 .f32) (X : SX.Idx → EReal) (b : SB.Idx → EReal) (hc : SB.ShapeCasts ⟨2, ![1, 1024]⟩)
    (hb : b2 = shapeCast ⟨2, ![1, 1024]⟩ b hc) (hx : IsTile r0 hr x X) :
    IsTile r0 hr
      (truncf (F := Ideal) .bf16
        (addf (matmul (φ₁ := .bf16) (φ₂ := .bf16) dot_S512x1024_S1024x1024_S512x1024_1_0_0_1_n_n none (truncf (F := Ideal) .bf16 x bitsLt_bf16_f32)
            (shapeCast S1024x1024 w shapeCasts_S1024x1024_S1024x1024) (constant S512x1024 .f32 0x00000000#32))
          (broadcastTo S512x1024 (shapeCast S1x1024 b2 shapeCasts_S1x1024_S1x1024) broadcasts_S1x1024_S512x1024))
        bitsLt_bf16_f32)
      (dense X w b) := by
  subst hb
  rw [shapeCast_self, shapeCast_self]
  exact vTrunc (φ := .f32) _ _ (vAdd (φ := .f32) (vMatmul (φ₁ := .bf16) (φ₂ := .bf16) _ rfl none w (vTrunc (φ := .f32) _ _ hx))
    (bias b hc _ bidBias (bidRow 4096 1024)))

/-- Q's rows. -/
theorem pay_q (hr : r0 + 512 ≤ 4096) (x : Vec Ideal S512x1024 .f32) (w : Vec Ideal S1024x1024 .bf16)
    (b2 : Vec Ideal S1x1024 .f32) (X : SX.Idx → EReal) (b : SB.Idx → EReal) (hc : SB.ShapeCasts ⟨2, ![1, 1024]⟩)
    (hb : b2 = shapeCast ⟨2, ![1, 1024]⟩ b hc) (hx : IsTile r0 hr x X) :
    IsTile r0 hr (k0_pay2 (F := Ideal) x w b2) (dense X w b) :=
  dense_rows hr x w b2 X b hc hb hx

/-- K's rows. -/
theorem pay_k (hr : r0 + 512 ≤ 4096) (x : Vec Ideal S512x1024 .f32) (w : Vec Ideal S1024x1024 .bf16)
    (b2 : Vec Ideal S1x1024 .f32) (X : SX.Idx → EReal) (b : SB.Idx → EReal) (hc : SB.ShapeCasts ⟨2, ![1, 1024]⟩)
    (hb : b2 = shapeCast ⟨2, ![1, 1024]⟩ b hc) (hx : IsTile r0 hr x X) :
    IsTile r0 hr (k0_pay3 (F := Ideal) x w b2) (dense X w b) :=
  dense_rows hr x w b2 X b hc hb hx

/-- V's rows. -/
theorem pay_v (hr : r0 + 512 ≤ 4096) (x : Vec Ideal S512x1024 .f32) (w : Vec Ideal S1024x1024 .bf16)
    (b2 : Vec Ideal S1x1024 .f32) (X : SX.Idx → EReal) (b : SB.Idx → EReal) (hc : SB.ShapeCasts ⟨2, ![1, 1024]⟩)
    (hb : b2 = shapeCast ⟨2, ![1, 1024]⟩ b hc) (hx : IsTile r0 hr x X) :
    IsTile r0 hr (k0_pay4 (F := Ideal) x w b2) (dense X w b) :=
  dense_rows hr x w b2 X b hc hb hx

/-- The attention weights' rows: for a tile q of Q's rows, softmax ((q · Kᵀ) · c) is those rows of softmax ((Q · Kᵀ) · c). -/
theorem pay_weights (hr : r0 + 256 ≤ 4096) (q : Vec Ideal S256x1024 .bf16) (k : Vec Ideal S4096x1024 .bf16)
    (Q : SX.Idx → EReal) (hq : IsTile r0 hr q Q) :
    IsTile r0 hr (k1_pay1 (F := Ideal) q k) (softmax (scores Q k)) := by
  unfold k1_pay1
  dsimp only
  rw [shapeCast_self, shapeCast_self, named_c]
  have hs : IsTile r0 hr
      (mulf (F := Ideal) (φ := .f32)
        (matmul (φ₁ := .bf16) (φ₂ := .bf16) dot_S256x1024_S1024x4096_S256x4096_1_0_0_1_n_n none q
          (transpose S1024x4096 [1, 0] k transposes_S4096x1024_p1_0_S1024x4096) (constant S256x4096 .f32 0x00000000#32))
        (broadcast S256x4096 c))
      (scores Q k) :=
    vScale (φ := .f32) c (vMatmul (φ₁ := .bf16) (φ₂ := .bf16) _ rfl none
      (transpose S1024x4096 [1, 0] k transposes_S4096x1024_p1_0_S1024x4096) hq)
  have hm := colRep broadcasts_S256x1_S256x4096 (bidCol 4096 4096)
    (laneMax 0xFF800000#32 reduces_S256x4096_S256 (.inl rfl) rfl shapeCasts_S256_S256x1 hs)
  have hp := vExp (φ := .f32) (vSub (φ := .f32) hs hm)
  have hl := colRep broadcasts_S256x1_S256x4096 (bidCol 4096 4096)
    (laneSum 0x00000000#32 reduces_S256x4096_S256 (.inl rfl) rfl shapeCasts_S256_S256x1 hp)
  exact vDiv (φ := .f32) hp hl

/-- The attention output's rows: the weights' rows times V. -/
theorem pay_output (hr : r0 + 256 ≤ 4096) (q : Vec Ideal S256x1024 .bf16) (k v : Vec Ideal S4096x1024 .bf16)
    (Q : SX.Idx → EReal) (hq : IsTile r0 hr q Q) :
    IsTile r0 hr (k1_pay2 (F := Ideal) q k v) (mix (softmax (scores Q k)) v) := by
  unfold k1_pay2
  dsimp only
  rw [shapeCast_self]
  exact vMatmul (φ₁ := .bf16) (φ₂ := .bf16) _ rfl none v (vTrunc (φ := .f32) _ _ (pay_weights hr q k Q hq))

end Cert.KernelIdeal.Payload

end
-- ==== Proof.Blocks0.lean ====
/-
  The projection kernel, from blocks to arrays.

  Its grid has 8 points; point t reads rows [512 t, 512 t + 512) of the input, the three weight matrices and the three
  1 × 1024 bias rows whole, and writes rows [512 t, 512 t + 512) of each of Q, K, V. Those rows are the same rows of the
  dense layer (the payload is a row tile of it), and the 8 blocks cover the 4096 rows, so after the region each of the
  three arrays is the dense layer of the arrays the region found.
-/
import proofs.«121798_j6768868458538_1_alg».proof.Proof.Gen.KernelIdeal.Frame
import proofs.«121798_j6768868458538_1_alg».proof.Proof.Payload

set_option maxRecDepth 16384

noncomputable section

namespace Cert.KernelIdeal.Blocks

open Idealize.ShloMosaic Idealize.ShloMosaic.TcCoe Idealize.ShloMosaic.ValueIdx Idealize.SL.Sem
open Cert.Tile Cert.Attn Cert.KernelIdeal Cert.KernelIdeal.Gen Cert.KernelIdeal.Payload
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lt0 (t : Fin cfg0.N) : t.val < 8 := Nat.lt_of_lt_of_eq t.isLt N_0
theorem le0 (t : Fin cfg0.N) : 512 * t.val + 512 ≤ 4096 := by have := lt0 t; omega

/-- The input windows' index maps over the grid: the input moves down one block of rows per point, the weights and
    biases stay. -/
theorem idxIn0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The output windows' index maps: block t of each output is rows [512 t, 512 t + 512). -/
theorem idxOut0 : ∀ t : Fin cfg0.N,
    win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The input's block at point t is rows [512 t, 512 t + 512) of the input array. -/
theorem rows0 (c : Dev nD) (t : Fin cfg0.N) : IsTile (512 * t.val) (le0 t) (iblk0 V c 0 t) (V c main_arg0) := by
  intro p l
  show V c main_arg0 (((cfg0.win 0).blk t).view.emb (ix2 p l)) = V c main_arg0 (ix2 ⟨512 * t.val + p.val, by have := lt0 t; omega⟩ l)
  refine congrArg (V c main_arg0) (funext fun a => Fin.ext ?_)
  match a with
  | ⟨0, _⟩ => show win0_0.index t (0 : Fin 2) * 512 + 1 * p.val = 512 * t.val + p.val; have := (idxIn0 t).1; omega
  | ⟨1, _⟩ => show win0_0.index t (1 : Fin 2) * 1024 + 1 * l.val = l.val; have := (idxIn0 t).2.1; omega

/-- Window 1's block is its whole array at every point. -/
theorem whole0_1 (c : Dev nD) (t : Fin cfg0.N) : iblk0 V c 1 t = V c main_v0 := by
  funext j
  show V c main_v0 (((cfg0.win 1).blk t).view.emb j) = V c main_v0 j
  refine congrArg (V c main_v0) (funext fun a => Fin.ext ?_)
  match a with
  | ⟨0, _⟩ => show win0_1.index t (0 : Fin 2) * 1024 + 1 * (j 0).val = (j 0).val; have := (idxIn0 t).2.2.1; omega
  | ⟨1, _⟩ => show win0_1.index t (1 : Fin 2) * 1024 + 1 * (j 1).val = (j 1).val; have := (idxIn0 t).2.2.2.1; omega

/-- Window 2's block is its whole array at every point. -/
theorem whole0_2 (c : Dev nD) (t : Fin cfg0.N) : iblk0 V c 2 t = V c main_v1 := by
  funext j
  show V c main_v1 (((cfg0.win 2).blk t).view.emb j) = V c main_v1 j
  refine congrArg (V c main_v1) (funext fun a => Fin.ext ?_)
  match a with
  | ⟨0, _⟩ => show win0_2.index t (0 : Fin 2) * 1024 + 1 * (j 0).val = (j 0).val; have := (idxIn0 t).2.2.2.2.1; omega
  | ⟨1, _⟩ => show win0_2.index t (1 : Fin 2) * 1024 + 1 * (j 1).val = (j 1).val; have := (idxIn0 t).2.2.2.2.2.1; omega

/-- Window 3's block is its whole array at every point. -/
theorem whole0_3 (c : Dev nD) (t : Fin cfg0.N) : iblk0 V c 3 t = V c main_v2 := by
  funext j
  show V c main_v2 (((cfg0.win 3).blk t).view.emb j) = V c main_v2 j
  refine congrArg (V c main_v2) (funext fun a => Fin.ext ?_)
  match a with
  | ⟨0, _⟩ => show win0_3.index t (0 : Fin 2) * 1024 + 1 * (j 0).val = (j 0).val; have := (idxIn0 t).2.2.2.2.2.2.1; omega
  | ⟨1, _⟩ => show win0_3.index t (1 : Fin 2) * 1024 + 1 * (j 1).val = (j 1).val; have := (idxIn0 t).2.2.2.2.2.2.2.1; omega

/-- Window 4's block is its whole array at every point. -/
theorem whole0_4 (c : Dev nD) (t : Fin cfg0.N) : iblk0 V c 4 t = V c main_v3 := by
  funext j
  show V c main_v3 (((cfg0.win 4).blk t).view.emb j) = V c main_v3 j
  refine congrArg (V c main_v3) (funext fun a => Fin.ext ?_)
  match a with
  | ⟨0, _⟩ => show win0_4.index t (0 : Fin 2) * 1 + 1 * (j 0).val = (j 0).val; have := (idxIn0 t).2.2.2.2.2.2.2.2.1; omega
  | ⟨1, _⟩ => show win0_4.index t (1 : Fin 2) * 1024 + 1 * (j 1).val = (j 1).val; have := (idxIn0 t).2.2.2.2.2.2.2.2.2.1; omega

/-- Window 5's block is its whole array at every point. -/
theorem whole0_5 (c : Dev nD) (t : Fin cfg0.N) : iblk0 V c 5 t = V c main_v4 := by
  funext j
  show V c main_v4 (((cfg0.win 5).blk t).view.emb j) = V c main_v4 j
  refine congrArg (V c main_v4) (funext fun a => Fin.ext ?_)
  match a with
  | ⟨0, _⟩ => show win0_5.index t (0 : Fin 2) * 1 + 1 * (j 0).val = (j 0).val; have := (idxIn0 t).2.2.2.2.2.2.2.2.2.2.1; omega
  | ⟨1, _⟩ => show win0_5.index t (1 : Fin 2) * 1024 + 1 * (j 1).val = (j 1).val; have := (idxIn0 t).2.2.2.2.2.2.2.2.2.2.2.1; omega

/-- Window 6's block is its whole array at every point. -/
theorem whole0_6 (c : Dev nD) (t : Fin cfg0.N) : iblk0 V c 6 t = V c main_v5 := by
  funext j
  show V c main_v5 (((cfg0.win 6).blk t).view.emb j) = V c main_v5 j
  refine congrArg (V c main_v5) (funext fun a => Fin.ext ?_)
  match a with
  | ⟨0, _⟩ => show win0_6.index t (0 : Fin 2) * 1 + 1 * (j 0).val = (j 0).val; have := (idxIn0 t).2.2.2.2.2.2.2.2.2.2.2.2.1; omega
  | ⟨1, _⟩ => show win0_6.index t (1 : Fin 2) * 1024 + 1 * (j 1).val = (j 1).val; have := (idxIn0 t).2.2.2.2.2.2.2.2.2.2.2.2.2; omega

/-- Output block `t` of window 7 sits at rows [512 t, 512 t + 512), all columns. -/
theorem emb0_7 (t : Fin cfg0.N) (p : Fin 512) (l : Fin 1024) :
    ((cfg0.win 7).blk t).view.emb (ix2 p l) = ix2 ⟨512 * t.val + p.val, by have := lt0 t; omega⟩ l := by
  funext a; apply Fin.ext
  match a with
  | ⟨0, _⟩ => show win0_7.index t (0 : Fin 2) * 512 + 1 * p.val = 512 * t.val + p.val; have := (idxOut0 t).1; omega
  | ⟨1, _⟩ => show win0_7.index t (1 : Fin 2) * 1024 + 1 * l.val = l.val; have := (idxOut0 t).2.1; omega

/-- What point `t` writes back through window 7: rows [512 t, 512 t + 512) of the dense layer of Q. -/
theorem flushed0_7 (c : Dev nD) (t : Fin cfg0.N) (b : SB.Idx → EReal) (hc : SB.ShapeCasts ⟨2, ![1, 1024]⟩)
    (hb : V c main_v3 = shapeCast ⟨2, ![1, 1024]⟩ b hc) :
    (dat0 V c).flushed 7 t = ((cfg0.win 7).blk t).view.read (Elt Ideal) (dense (V c main_arg0) (V c main_v0) b) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  funext j
  obtain ⟨p, l, rfl⟩ : ∃ (p : Fin 512) (l : Fin 1024), j = ix2 p l := ⟨j 0, j 1, eq_ix2 j⟩
  show k0_pay2 (iblk0 V c 0 t) (iblk0 V c 1 t) (iblk0 V c 4 t) (ix2 p l)
    = dense (V c main_arg0) (V c main_v0) b (((cfg0.win 7).blk t).view.emb (ix2 p l))
  rw [emb0_7 t p l, whole0_1 V c t]
  exact pay_q (le0 t) (iblk0 V c 0 t) (V c main_v0) (iblk0 V c 4 t) (V c main_arg0) b hc ((whole0_4 V c t).trans hb) (rows0 V c t) p l

/-- An index of the array is in point `t`'s block of window 7 iff each coordinate is in the block's range. -/
theorem mem_blk0_7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_0).slice (win0_7.rect t)).set ↔ _
  rw [View.set_slice_whole, Rect.mem_set_unit]
  exact Iff.rfl

/-- Every row is in the block of the point `row / 512`. -/
theorem cover0_7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  refine ⟨⟨(i 0).val / 512, by rw [show cfg0.N = 8 from N_0]; omega⟩, flush0_7 _, ?_⟩
  rw [mem_blk0_7]
  intro a
  match a with
  | ⟨0, _⟩ =>
    show win0_7.index _ (0 : Fin 2) * 512 ≤ (i 0).val ∧ (i 0).val < win0_7.index _ (0 : Fin 2) * 512 + 512
    rw [(idxOut0 _).1]
    show (i 0).val / 512 * 512 ≤ (i 0).val ∧ (i 0).val < (i 0).val / 512 * 512 + 512
    omega
  | ⟨1, _⟩ =>
    show win0_7.index _ (1 : Fin 2) * 1024 ≤ (i 1).val ∧ (i 1).val < win0_7.index _ (1 : Fin 2) * 1024 + 1024
    rw [(idxOut0 _).2.1]
    omega

/-- The array of window 7 after the region: the dense layer of Q of the arrays the region found. -/
theorem final0_7 (c : Dev nD) (b : SB.Idx → EReal) (hc : SB.ShapeCasts ⟨2, ![1, 1024]⟩)
    (hb : V c main_v3 = shapeCast ⟨2, ![1, 1024]⟩ b hc) :
    (dat0 V c).arrAt 7 cfg0.N = dense (V c main_arg0) (V c main_v0) b :=
  (dat0 V c).arrAt_eq_of_cover 7 _ (fun t _ => flushed0_7 V c t b hc hb) cover0_7

/-- Output block `t` of window 8 sits at rows [512 t, 512 t + 512), all columns. -/
theorem emb0_8 (t : Fin cfg0.N) (p : Fin 512) (l : Fin 1024) :
    ((cfg0.win 8).blk t).view.emb (ix2 p l) = ix2 ⟨512 * t.val + p.val, by have := lt0 t; omega⟩ l := by
  funext a; apply Fin.ext
  match a with
  | ⟨0, _⟩ => show win0_8.index t (0 : Fin 2) * 512 + 1 * p.val = 512 * t.val + p.val; have := (idxOut0 t).2.2.1; omega
  | ⟨1, _⟩ => show win0_8.index t (1 : Fin 2) * 1024 + 1 * l.val = l.val; have := (idxOut0 t).2.2.2.1; omega

/-- What point `t` writes back through window 8: rows [512 t, 512 t + 512) of the dense layer of K. -/
theorem flushed0_8 (c : Dev nD) (t : Fin cfg0.N) (b : SB.Idx → EReal) (hc : SB.ShapeCasts ⟨2, ![1, 1024]⟩)
    (hb : V c main_v4 = shapeCast ⟨2, ![1, 1024]⟩ b hc) :
    (dat0 V c).flushed 8 t = ((cfg0.win 8).blk t).view.read (Elt Ideal) (dense (V c main_arg0) (V c main_v1) b) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1x1024) hz]
  funext j
  obtain ⟨p, l, rfl⟩ : ∃ (p : Fin 512) (l : Fin 1024), j = ix2 p l := ⟨j 0, j 1, eq_ix2 j⟩
  show k0_pay3 (iblk0 V c 0 t) (iblk0 V c 2 t) (iblk0 V c 5 t) (ix2 p l)
    = dense (V c main_arg0) (V c main_v1) b (((cfg0.win 8).blk t).view.emb (ix2 p l))
  rw [emb0_8 t p l, whole0_2 V c t]
  exact pay_k (le0 t) (iblk0 V c 0 t) (V c main_v1) (iblk0 V c 5 t) (V c main_arg0) b hc ((whole0_5 V c t).trans hb) (rows0 V c t) p l

/-- An index of the array is in point `t`'s block of window 8 iff each coordinate is in the block's range. -/
theorem mem_blk0_8 (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v6_1).slice (win0_8.rect t)).set ↔ _
  rw [View.set_slice_whole, Rect.mem_set_unit]
  exact Iff.rfl

/-- Every row is in the block of the point `row / 512`. -/
theorem cover0_8 (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  refine ⟨⟨(i 0).val / 512, by rw [show cfg0.N = 8 from N_0]; omega⟩, flush0_8 _, ?_⟩
  rw [mem_blk0_8]
  intro a
  match a with
  | ⟨0, _⟩ =>
    show win0_8.index _ (0 : Fin 2) * 512 ≤ (i 0).val ∧ (i 0).val < win0_8.index _ (0 : Fin 2) * 512 + 512
    rw [(idxOut0 _).2.2.1]
    show (i 0).val / 512 * 512 ≤ (i 0).val ∧ (i 0).val < (i 0).val / 512 * 512 + 512
    omega
  | ⟨1, _⟩ =>
    show win0_8.index _ (1 : Fin 2) * 1024 ≤ (i 1).val ∧ (i 1).val < win0_8.index _ (1 : Fin 2) * 1024 + 1024
    rw [(idxOut0 _).2.2.2.1]
    omega

/-- The array of window 8 after the region: the dense layer of K of the arrays the region found. -/
theorem final0_8 (c : Dev nD) (b : SB.Idx → EReal) (hc : SB.ShapeCasts ⟨2, ![1, 1024]⟩)
    (hb : V c main_v4 = shapeCast ⟨2, ![1, 1024]⟩ b hc) :
    (dat0 V c).arrAt 8 cfg0.N = dense (V c main_arg0) (V c main_v1) b :=
  (dat0 V c).arrAt_eq_of_cover 8 _ (fun t _ => flushed0_8 V c t b hc hb) cover0_8

/-- Output block `t` of window 9 sits at rows [512 t, 512 t + 512), all columns. -/
theorem emb0_9 (t : Fin cfg0.N) (p : Fin 512) (l : Fin 1024) :
    ((cfg0.win 9).blk t).view.emb (ix2 p l) = ix2 ⟨512 * t.val + p.val, by have := lt0 t; omega⟩ l := by
  funext a; apply Fin.ext
  match a with
  | ⟨0, _⟩ => show win0_9.index t (0 : Fin 2) * 512 + 1 * p.val = 512 * t.val + p.val; have := (idxOut0 t).2.2.2.2.1; omega
  | ⟨1, _⟩ => show win0_9.index t (1 : Fin 2) * 1024 + 1 * l.val = l.val; have := (idxOut0 t).2.2.2.2.2; omega

/-- What point `t` writes back through window 9: rows [512 t, 512 t + 512) of the dense layer of V. -/
theorem flushed0_9 (c : Dev nD) (t : Fin cfg0.N) (b : SB.Idx → EReal) (hc : SB.ShapeCasts ⟨2, ![1, 1024]⟩)
    (hb : V c main_v5 = shapeCast ⟨2, ![1, 1024]⟩ b hc) :
    (dat0 V c).flushed 9 t = ((cfg0.win 9).blk t).view.read (Elt Ideal) (dense (V c main_arg0) (V c main_v2) b) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  funext j
  obtain ⟨p, l, rfl⟩ : ∃ (p : Fin 512) (l : Fin 1024), j = ix2 p l := ⟨j 0, j 1, eq_ix2 j⟩
  show k0_pay4 (iblk0 V c 0 t) (iblk0 V c 3 t) (iblk0 V c 6 t) (ix2 p l)
    = dense (V c main_arg0) (V c main_v2) b (((cfg0.win 9).blk t).view.emb (ix2 p l))
  rw [emb0_9 t p l, whole0_3 V c t]
  exact pay_v (le0 t) (iblk0 V c 0 t) (V c main_v2) (iblk0 V c 6 t) (V c main_arg0) b hc ((whole0_6 V c t).trans hb) (rows0 V c t) p l

/-- An index of the array is in point `t`'s block of window 9 iff each coordinate is in the block's range. -/
theorem mem_blk0_9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v6_2).slice (win0_9.rect t)).set ↔ _
  rw [View.set_slice_whole, Rect.mem_set_unit]
  exact Iff.rfl

/-- Every row is in the block of the point `row / 512`. -/
theorem cover0_9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  refine ⟨⟨(i 0).val / 512, by rw [show cfg0.N = 8 from N_0]; omega⟩, flush0_9 _, ?_⟩
  rw [mem_blk0_9]
  intro a
  match a with
  | ⟨0, _⟩ =>
    show win0_9.index _ (0 : Fin 2) * 512 ≤ (i 0).val ∧ (i 0).val < win0_9.index _ (0 : Fin 2) * 512 + 512
    rw [(idxOut0 _).2.2.2.2.1]
    show (i 0).val / 512 * 512 ≤ (i 0).val ∧ (i 0).val < (i 0).val / 512 * 512 + 512
    omega
  | ⟨1, _⟩ =>
    show win0_9.index _ (1 : Fin 2) * 1024 ≤ (i 1).val ∧ (i 1).val < win0_9.index _ (1 : Fin 2) * 1024 + 1024
    rw [(idxOut0 _).2.2.2.2.2]
    omega

/-- The array of window 9 after the region: the dense layer of V of the arrays the region found. -/
theorem final0_9 (c : Dev nD) (b : SB.Idx → EReal) (hc : SB.ShapeCasts ⟨2, ![1, 1024]⟩)
    (hb : V c main_v5 = shapeCast ⟨2, ![1, 1024]⟩ b hc) :
    (dat0 V c).arrAt 9 cfg0.N = dense (V c main_arg0) (V c main_v2) b :=
  (dat0 V c).arrAt_eq_of_cover 9 _ (fun t _ => flushed0_9 V c t b hc hb) cover0_9

end Cert.KernelIdeal.Blocks

end
-- ==== Proof.Blocks1.lean ====
/-
  The attention kernel, from blocks to arrays.

  Its grid has 16 points; point t reads rows [256 t, 256 t + 256) of Q and all of K and V, and writes the same rows of
  the attention weights (4096 columns) and of the attention output (1024 columns). Those rows are the same rows of
  softmax ((Q · Kᵀ) · c) and of weights · V (the payloads are row tiles of them), and the 16 blocks cover the 4096 rows.
-/
import proofs.«121798_j6768868458538_1_alg».proof.Proof.Gen.KernelIdeal.Frame
import proofs.«121798_j6768868458538_1_alg».proof.Proof.Payload

set_option maxRecDepth 16384

noncomputable section

namespace Cert.KernelIdeal.Blocks1

open Idealize.ShloMosaic Idealize.ShloMosaic.TcCoe Idealize.ShloMosaic.ValueIdx Idealize.SL.Sem
open Cert.Tile Cert.Attn Cert.KernelIdeal Cert.KernelIdeal.Gen Cert.KernelIdeal.Payload
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lt1 (t : Fin cfg1.N) : t.val < 16 := Nat.lt_of_lt_of_eq t.isLt N_1
theorem le1 (t : Fin cfg1.N) : 256 * t.val + 256 ≤ 4096 := by have := lt1 t; omega

/-- The index maps over the grid: Q and the two outputs move down one block of rows per point, K and V stay. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Q's block at point t is rows [256 t, 256 t + 256) of Q. -/
theorem rows1 (c : Dev nD) (t : Fin cfg1.N) : IsTile (256 * t.val) (le1 t) (iblk1 V c 0 t) (V c main_v6_0) := by
  intro p l
  show V c main_v6_0 (((cfg1.win 0).blk t).view.emb (ix2 p l)) = V c main_v6_0 (ix2 ⟨256 * t.val + p.val, by have := lt1 t; omega⟩ l)
  refine congrArg (V c main_v6_0) (funext fun a => Fin.ext ?_)
  match a with
  | ⟨0, _⟩ => show win1_0.index t (0 : Fin 2) * 256 + 1 * p.val = 256 * t.val + p.val; have := (idx1 t).1; omega
  | ⟨1, _⟩ => show win1_0.index t (1 : Fin 2) * 1024 + 1 * l.val = l.val; have := (idx1 t).2.1; omega

/-- K's block is all of K at every point. -/
theorem whole1_1 (c : Dev nD) (t : Fin cfg1.N) : iblk1 V c 1 t = V c main_v6_1 := by
  funext j
  show V c main_v6_1 (((cfg1.win 1).blk t).view.emb j) = V c main_v6_1 j
  refine congrArg (V c main_v6_1) (funext fun a => Fin.ext ?_)
  match a with
  | ⟨0, _⟩ => show win1_1.index t (0 : Fin 2) * 4096 + 1 * (j 0).val = (j 0).val; have := (idx1 t).2.2.1; omega
  | ⟨1, _⟩ => show win1_1.index t (1 : Fin 2) * 1024 + 1 * (j 1).val = (j 1).val; have := (idx1 t).2.2.2.1; omega

/-- V's block is all of V at every point. -/
theorem whole1_2 (c : Dev nD) (t : Fin cfg1.N) : iblk1 V c 2 t = V c main_v6_2 := by
  funext j
  show V c main_v6_2 (((cfg1.win 2).blk t).view.emb j) = V c main_v6_2 j
  refine congrArg (V c main_v6_2) (funext fun a => Fin.ext ?_)
  match a with
  | ⟨0, _⟩ => show win1_2.index t (0 : Fin 2) * 4096 + 1 * (j 0).val = (j 0).val; have := (idx1 t).2.2.2.2.1; omega
  | ⟨1, _⟩ => show win1_2.index t (1 : Fin 2) * 1024 + 1 * (j 1).val = (j 1).val; have := (idx1 t).2.2.2.2.2.1; omega

/-! ## The attention weights (window 3) -/

/-- Block t of the weights sits at rows [256 t, 256 t + 256), all 4096 columns. -/
theorem emb1_3 (t : Fin cfg1.N) (p : Fin 256) (l : Fin 4096) :
    ((cfg1.win 3).blk t).view.emb (ix2 p l) = ix2 ⟨256 * t.val + p.val, by have := lt1 t; omega⟩ l := by
  funext a; apply Fin.ext
  match a with
  | ⟨0, _⟩ => show win1_3.index t (0 : Fin 2) * 256 + 1 * p.val = 256 * t.val + p.val; have := (idx1 t).2.2.2.2.2.2.1; omega
  | ⟨1, _⟩ => show win1_3.index t (1 : Fin 2) * 4096 + 1 * l.val = l.val; have := (idx1 t).2.2.2.2.2.2.2.1; omega

/-- What point t writes back through window 3: rows [256 t, 256 t + 256) of softmax ((Q · Kᵀ) · c). -/
theorem flushed1_3 (c : Dev nD) (t : Fin cfg1.N) :
    (dat1 V c).flushed 3 t = ((cfg1.win 3).blk t).view.read (Elt Ideal) (softmax (scores (V c main_v6_0) (V c main_v6_1))) := by
  show (cfg1.win 3).cut (grid1.coords t) ((dat1 V c).after 3 t) = _
  rw [after1_3]
  unfold out1_3
  rw [View.canon_unit_zero hz]
  simp only [View.ld_unit_zero (S := S256x1024) hz, View.ld_unit_zero (S := S4096x1024) hz]
  funext j
  obtain ⟨p, l, rfl⟩ : ∃ (p : Fin 256) (l : Fin 4096), j = ix2 p l := ⟨j 0, j 1, eq_ix2 j⟩
  show k1_pay1 (iblk1 V c 0 t) (iblk1 V c 1 t) (ix2 p l)
    = softmax (scores (V c main_v6_0) (V c main_v6_1)) (((cfg1.win 3).blk t).view.emb (ix2 p l))
  rw [emb1_3 t p l, whole1_1 V c t]
  exact pay_weights (le1 t) (iblk1 V c 0 t) (V c main_v6_1) (V c main_v6_0) (rows1 V c t) p l

theorem mem_blk1_3 (t : Fin cfg1.N) (i : S4096x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v7_0).slice (win1_3.rect t)).set ↔ _
  rw [View.set_slice_whole, Rect.mem_set_unit]
  exact Iff.rfl

/-- Every row of the weights is in the block of the point `row / 256`. -/
theorem cover1_3 (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  refine ⟨⟨(i 0).val / 256, by rw [show cfg1.N = 16 from N_1]; omega⟩, flush1_3 _, ?_⟩
  rw [mem_blk1_3]
  intro a
  match a with
  | ⟨0, _⟩ =>
    show win1_3.index _ (0 : Fin 2) * 256 ≤ (i 0).val ∧ (i 0).val < win1_3.index _ (0 : Fin 2) * 256 + 256
    rw [(idx1 _).2.2.2.2.2.2.1]
    show (i 0).val / 256 * 256 ≤ (i 0).val ∧ (i 0).val < (i 0).val / 256 * 256 + 256
    omega
  | ⟨1, _⟩ =>
    show win1_3.index _ (1 : Fin 2) * 4096 ≤ (i 1).val ∧ (i 1).val < win1_3.index _ (1 : Fin 2) * 4096 + 4096
    rw [(idx1 _).2.2.2.2.2.2.2.1]
    omega

/-- The weights' array after the region. -/
theorem final1_3 (c : Dev nD) :
    (dat1 V c).arrAt 3 cfg1.N = softmax (scores (V c main_v6_0) (V c main_v6_1)) :=
  (dat1 V c).arrAt_eq_of_cover 3 _ (fun t _ => flushed1_3 V c t) cover1_3

/-! ## The attention output (window 4) -/

/-- Block t of the output sits at rows [256 t, 256 t + 256), all 1024 columns. -/
theorem emb1_4 (t : Fin cfg1.N) (p : Fin 256) (l : Fin 1024) :
    ((cfg1.win 4).blk t).view.emb (ix2 p l) = ix2 ⟨256 * t.val + p.val, by have := lt1 t; omega⟩ l := by
  funext a; apply Fin.ext
  match a with
  | ⟨0, _⟩ => show win1_4.index t (0 : Fin 2) * 256 + 1 * p.val = 256 * t.val + p.val; have := (idx1 t).2.2.2.2.2.2.2.2.1; omega
  | ⟨1, _⟩ => show win1_4.index t (1 : Fin 2) * 1024 + 1 * l.val = l.val; have := (idx1 t).2.2.2.2.2.2.2.2.2; omega

/-- What point t writes back through window 4: rows [256 t, 256 t + 256) of weights · V. -/
theorem flushed1_4 (c : Dev nD) (t : Fin cfg1.N) :
    (dat1 V c).flushed 4 t
      = ((cfg1.win 4).blk t).view.read (Elt Ideal) (mix (softmax (scores (V c main_v6_0) (V c main_v6_1))) (V c main_v6_2)) := by
  show (cfg1.win 4).cut (grid1.coords t) ((dat1 V c).after 4 t) = _
  rw [after1_4]
  unfold out1_4
  rw [View.canon_unit_zero hz]
  simp only [View.ld_unit_zero (S := S256x1024) hz, View.ld_unit_zero (S := S4096x1024) hz]
  funext j
  obtain ⟨p, l, rfl⟩ : ∃ (p : Fin 256) (l : Fin 1024), j = ix2 p l := ⟨j 0, j 1, eq_ix2 j⟩
  show k1_pay2 (iblk1 V c 0 t) (iblk1 V c 1 t) (iblk1 V c 2 t) (ix2 p l)
    = mix (softmax (scores (V c main_v6_0) (V c main_v6_1))) (V c main_v6_2) (((cfg1.win 4).blk t).view.emb (ix2 p l))
  rw [emb1_4 t p l, whole1_1 V c t, whole1_2 V c t]
  exact pay_output (le1 t) (iblk1 V c 0 t) (V c main_v6_1) (V c main_v6_2) (V c main_v6_0) (rows1 V c t) p l

theorem mem_blk1_4 (t : Fin cfg1.N) (i : S4096x1024.Idx) :
    i ∈ ((cfg1.win 4).blk t).view.set ↔ ∀ a : Fin 2, win1_4.index t a * S256x1024.size a ≤ (i a).val ∧ (i a).val < win1_4.index t a * S256x1024.size a + S256x1024.size a := by
  show i ∈ ((View.whole main_v7_1).slice (win1_4.rect t)).set ↔ _
  rw [View.set_slice_whole, Rect.mem_set_unit]
  exact Iff.rfl

/-- Every row of the output is in the block of the point `row / 256`. -/
theorem cover1_4 (i : S4096x1024.Idx) :
    ∃ t : Fin cfg1.N, (cfg1.win 4).flush t = true ∧ i ∈ ((cfg1.win 4).blk t).view.set := by
  have hi0 : (i 0).val < 4096 := (i 0).isLt
  have hi1 : (i 1).val < 1024 := (i 1).isLt
  refine ⟨⟨(i 0).val / 256, by rw [show cfg1.N = 16 from N_1]; omega⟩, flush1_4 _, ?_⟩
  rw [mem_blk1_4]
  intro a
  match a with
  | ⟨0, _⟩ =>
    show win1_4.index _ (0 : Fin 2) * 256 ≤ (i 0).val ∧ (i 0).val < win1_4.index _ (0 : Fin 2) * 256 + 256
    rw [(idx1 _).2.2.2.2.2.2.2.2.1]
    show (i 0).val / 256 * 256 ≤ (i 0).val ∧ (i 0).val < (i 0).val / 256 * 256 + 256
    omega
  | ⟨1, _⟩ =>
    show win1_4.index _ (1 : Fin 2) * 1024 ≤ (i 1).val ∧ (i 1).val < win1_4.index _ (1 : Fin 2) * 1024 + 1024
    rw [(idx1 _).2.2.2.2.2.2.2.2.2]
    omega

/-- The output's array after the region. -/
theorem final1_4 (c : Dev nD) :
    (dat1 V c).arrAt 4 cfg1.N = mix (softmax (scores (V c main_v6_0) (V c main_v6_1))) (V c main_v6_2) :=
  (dat1 V c).arrAt_eq_of_cover 4 _ (fun t _ => flushed1_4 V c t) cover1_4

end Cert.KernelIdeal.Blocks1

end
-- ==== Proof.KernelValue.lean ====
/-
  The kernel program's run with its two results named, and what they hold.

  @main is a stretch of host operations (the three weight matrices narrowed to bf16 — the identity on the extended reals —
  and the three biases viewed 1 × 1024), the projection region, the attention region, and one reshape. The run ends with
  every buffer at the contents the last boundary names: the weights' array as the attention region leaves it, and the
  output as the reshape of that region's second array. Reading back through the boundaries: the attention region found
  Q, K, V as the projection region left them — the dense layers of the input —, so its arrays end at the attention
  weights and the attention output of the seven arguments.
-/
import proofs.«121798_j6768868458538_1_alg».proof.Proof.Gen.KernelIdeal.Frame
import proofs.«121798_j6768868458538_1_alg».proof.Proof.Blocks0
import proofs.«121798_j6768868458538_1_alg».proof.Proof.Blocks1
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched: the launch over the four segments, the last thread state read against the
    final state. -/
theorem run_results : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v7_0) = W4 m ρ c (Proc.devRef .tc main_v7_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       h c _ (mem_uc main_v7_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Run

/-! ## The boundaries' contents at the ideal values -/

section Contents

open Idealize.ShloMosaic.ValueIdx Cert.Tile Cert.Attn Cert.KernelIdeal.Blocks Cert.KernelIdeal.Blocks1

variable (m : (ℓ : Loc nD τ sig) → Buf (Elt Ideal) ℓ) (ρ : Dev nD → PrngReg)

/-- The projection region finds the input as launched: no host operation writes it. -/
theorem V1_x (c : Dev nD) : V1 m ρ c main_arg0 = m ((c : Thread nD τ).loc main_arg0) := by
  show StableHlo.after hostOps0 (W0 m ρ c) (Proc.devRef .tc main_arg0) = _
  dsimp only [hostOps0]
  after_results

/-- … each weight matrix narrowed to bf16, which at the ideal values is the matrix itself, … -/
theorem V1_wq (c : Dev nD) : V1 m ρ c main_v0 = m ((c : Thread nD τ).loc main_arg1) := by
  show StableHlo.after hostOps0 (W0 m ρ c) (Proc.devRef .tc main_v0) = _
  dsimp only [hostOps0]
  after_results
  rfl
theorem V1_wk (c : Dev nD) : V1 m ρ c main_v1 = m ((c : Thread nD τ).loc main_arg3) := by
  show StableHlo.after hostOps0 (W0 m ρ c) (Proc.devRef .tc main_v1) = _
  dsimp only [hostOps0]
  after_results
  rfl
theorem V1_wv (c : Dev nD) : V1 m ρ c main_v2 = m ((c : Thread nD τ).loc main_arg5) := by
  show StableHlo.after hostOps0 (W0 m ρ c) (Proc.devRef .tc main_v2) = _
  dsimp only [hostOps0]
  after_results
  rfl

/-- … and each bias viewed 1 × 1024. -/
theorem V1_bq (c : Dev nD) :
    V1 m ρ c main_v3 = shapeCast ⟨2, ![1, 1024]⟩ (m ((c : Thread nD τ).loc main_arg2)) shapeCasts_S1024_S1x1024 := by
  show StableHlo.after hostOps0 (W0 m ρ c) (Proc.devRef .tc main_v3) = _
  dsimp only [hostOps0]
  after_results
  rfl
theorem V1_bk (c : Dev nD) :
    V1 m ρ c main_v4 = shapeCast ⟨2, ![1, 1024]⟩ (m ((c : Thread nD τ).loc main_arg4)) shapeCasts_S1024_S1x1024 := by
  show StableHlo.after hostOps0 (W0 m ρ c) (Proc.devRef .tc main_v4) = _
  dsimp only [hostOps0]
  after_results
  rfl
theorem V1_bv (c : Dev nD) :
    V1 m ρ c main_v5 = shapeCast ⟨2, ![1, 1024]⟩ (m ((c : Thread nD τ).loc main_arg6)) shapeCasts_S1024_S1x1024 := by
  show StableHlo.after hostOps0 (W0 m ρ c) (Proc.devRef .tc main_v5) = _
  dsimp only [hostOps0]
  after_results
  rfl

/-- The attention region finds Q, K, V as the projection region left them: the dense layers of the input. -/
theorem V2_q (c : Dev nD) :
    V2 m ρ c main_v6_0 = dense (m ((c : Thread nD τ).loc main_arg0)) (m ((c : Thread nD τ).loc main_arg1)) (m ((c : Thread nD τ).loc main_arg2)) := by
  refine (W2_arr m ρ c 7).trans ((final0_7 (V1 m ρ) c _ shapeCasts_S1024_S1x1024 (V1_bq m ρ c)).trans ?_)
  rw [V1_x, V1_wq]
theorem V2_k (c : Dev nD) :
    V2 m ρ c main_v6_1 = dense (m ((c : Thread nD τ).loc main_arg0)) (m ((c : Thread nD τ).loc main_arg3)) (m ((c : Thread nD τ).loc main_arg4)) := by
  refine (W2_arr m ρ c 8).trans ((final0_8 (V1 m ρ) c _ shapeCasts_S1024_S1x1024 (V1_bk m ρ c)).trans ?_)
  rw [V1_x, V1_wk]
theorem V2_v (c : Dev nD) :
    V2 m ρ c main_v6_2 = dense (m ((c : Thread nD τ).loc main_arg0)) (m ((c : Thread nD τ).loc main_arg5)) (m ((c : Thread nD τ).loc main_arg6)) := by
  refine (W2_arr m ρ c 9).trans ((final0_9 (V1 m ρ) c _ shapeCasts_S1024_S1x1024 (V1_bv m ρ c)).trans ?_)
  rw [V1_x, V1_wv]

/-- The weights' buffer at the end: no later operation writes it, and the attention region leaves the attention weights. -/
theorem weights_end (c : Dev nD) :
    W4 m ρ c (Proc.devRef .tc main_v7_0)
      = weights (m ((c : Thread nD τ).loc main_arg0)) (m ((c : Thread nD τ).loc main_arg1)) (m ((c : Thread nD τ).loc main_arg2))
          (m ((c : Thread nD τ).loc main_arg3)) (m ((c : Thread nD τ).loc main_arg4)) := by
  have e : W4 m ρ c (Proc.devRef .tc main_v7_0) = W3 m ρ c (Proc.devRef .tc main_v7_0) := by
    show StableHlo.after hostOps2 (W3 m ρ c) (Proc.devRef .tc main_v7_0) = _
    dsimp only [hostOps2]
    after_results
  refine e.trans ((W3_arr m ρ c 3).trans ((final1_3 (V2 m ρ) c).trans ?_))
  rw [V2_q, V2_k]
  rfl

/-- The output's buffer at the end: the reshape of the attention region's second array, the attention output. -/
theorem output_end (c : Dev nD) :
    W4 m ρ c (Proc.devRef .tc main_v8)
      = output (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e : W4 m ρ c (Proc.devRef .tc main_v8)
      = shapeCast S4096x32x32 (W3 m ρ c (Proc.devRef .tc main_v7_1)) shapeCasts_S4096x1024_S4096x32x32 := by
    show StableHlo.after hostOps2 (W3 m ρ c) (Proc.devRef .tc main_v8) = _
    dsimp only [hostOps2]
    after_results
    rfl
  rw [e, show W3 m ρ c (Proc.devRef .tc main_v7_1) = _ from (W3_arr m ρ c 4).trans (final1_4 (V2 m ρ) c), V2_q, V2_k, V2_v]
  rfl

/-- The kernel program's run at the ideal values: the two results are the attention output and the attention weights of
    the arguments, which end as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8)
        = output (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_v7_0)
        = weights (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (output_end m ρ c), (h c).2.1.trans (weights_end m ρ c), (h c).2.2⟩)
    (run_results m ρ)

end Contents

end Cert.KernelIdeal.RunValue

end
-- ==== Proof.RefValue.lean ====
/-
  The reference's two results are the specification.

  Its dense layers are x · W + b as written (the host's dot_general is the plain matrix product into zero). Its scores
  are the product with Kᵀ divided by the f32 number D, which is the product times c. Its softmax takes each row's maximum
  from −∞ (and once more against −∞, which changes nothing), broadcasts it back as a column, exponentiates the
  differences, sums each row from 0 and divides: the columns are `rowMax` and `rowSum`, the rest is entry by entry.
-/
import proofs.«121798_j6768868458538_1_alg».proof.Proof.Gen.ReferenceIdeal.Run
import proofs.«121798_j6768868458538_1_alg».proof.Proof.Spec

noncomputable section

namespace Cert.ReferenceIdeal.RefValue

open Idealize.ShloMosaic Idealize.ShloMosaic.ValueIdx Cert.Tile Cert.Attn Cert.ReferenceIdeal Cert.ReferenceIdeal.Gen

theorem redRow : (⟨2, ![4096, 4096]⟩ : Shape).Reduces [1] ⟨1, ![4096]⟩ := by decide

/-- A dense layer as the host writes it. -/
theorem dense_eq (x : FVec Ideal S4096x1024 .f32) (w : FVec Ideal S1024x1024 .f32) (b : FVec Ideal S1024 .f32) :
    addf (Host.dotGeneral dot_S4096x1024_S1024x1024_S4096x1024_1_0_0_1_n_n none x w)
      (broadcastInDim S4096x1024 ![0, 1] bcast_S1x1024_S4096x1024_0_1 (broadcastInDim S1x1024 ![1] bcast_S1024_S1x1024_1 b))
    = dense x w b := rfl

/-- The host's scores: the product with Kᵀ over D is the product times c. -/
theorem scores_eq (Q K : FVec Ideal S4096x1024 .f32) :
    Host.divf (Host.dotGeneral dot_S4096x1024_S1024x4096_S4096x4096_1_0_0_1_n_n none Q
        (transpose S1024x4096 [1, 0] K transposes_S4096x1024_S1024x4096_1_0))
      (broadcastInDim S4096x4096 ![] bcast_S_S4096x4096 (constant S_ .f32 0x40B504F3#32))
    = scores Q K := by
  funext i
  have e : broadcastInDim S4096x4096 ![] bcast_S_S4096x4096 (constant (F := Ideal) S_ .f32 0x40B504F3#32) i
      = Ideal.ofBits .f32 0x40B504F3#32 :=
    broadcastInDim_apply _ bcast_S_S4096x4096 _ i ix0 (fun a => a.elim0)
  show Ideal.div _ (broadcastInDim S4096x4096 ![] bcast_S_S4096x4096 (constant (F := Ideal) S_ .f32 0x40B504F3#32) i) = _
  rw [e]
  exact div_divisor _

/-- The host's column of row maxima. -/
theorem rowMax_eq (S : FVec Ideal S4096x4096 .f32) :
    broadcastInDim S4096x1 ![0] bcast_S4096_S4096x1_0
      (maximumf (broadcastInDim S4096 ![] bcast_S_S4096 (constant S_ .f32 0xFF800000#32))
        (Host.reduce FloatOps.maximumf S (constant S_ .f32 0xFF800000#32) reducesTo_S4096x4096_S4096_d1 h_S_))
    = rowMax negInf S :=
  hostRowMaxCol S _ negInf reducesTo_S4096x4096_S4096_d1 redRow h_S_ rfl _
    (fun a => broadcastInDim_apply _ bcast_S_S4096 _ a ix0 (fun ax => ax.elim0)) bcast_S4096_S4096x1_0

/-- The host's column of row sums. -/
theorem rowSum_eq (P : FVec Ideal S4096x4096 .f32) :
    broadcastInDim S4096x1 ![0] bcast_S4096_S4096x1_0
      (Host.reduceAdd P (constant S_ .f32 0x00000000#32) reducesTo_S4096x4096_S4096_d1 h_S_)
    = rowSum P :=
  hostRowSumCol P _ reducesTo_S4096x4096_S4096_d1 redRow h_S_ Ideal.ofBits_zero_f32 bcast_S4096_S4096x1_0

/-- The host's softmax along the rows. -/
theorem softmax_eq (S : FVec Ideal S4096x4096 .f32) :
    Host.divf
      (Host.exp (subf S (broadcastInDim S4096x4096 ![0, 1] bcast_S4096x1_S4096x4096_0_1
        (broadcastInDim S4096x1 ![0] bcast_S4096_S4096x1_0
          (maximumf (broadcastInDim S4096 ![] bcast_S_S4096 (constant S_ .f32 0xFF800000#32))
            (Host.reduce FloatOps.maximumf S (constant S_ .f32 0xFF800000#32) reducesTo_S4096x4096_S4096_d1 h_S_))))))
      (broadcastInDim S4096x4096 ![0, 1] bcast_S4096x1_S4096x4096_0_1
        (broadcastInDim S4096x1 ![0] bcast_S4096_S4096x1_0
          (Host.reduceAdd
            (Host.exp (subf S (broadcastInDim S4096x4096 ![0, 1] bcast_S4096x1_S4096x4096_0_1
              (broadcastInDim S4096x1 ![0] bcast_S4096_S4096x1_0
                (maximumf (broadcastInDim S4096 ![] bcast_S_S4096 (constant S_ .f32 0xFF800000#32))
                  (Host.reduce FloatOps.maximumf S (constant S_ .f32 0xFF800000#32) reducesTo_S4096x4096_S4096_d1 h_S_))))))
            (constant S_ .f32 0x00000000#32) reducesTo_S4096x4096_S4096_d1 h_S_)))
    = softmax S := by
  rw [rowMax_eq, rowSum_eq]
  rfl

/-- The reference's second result is the attention weights of the arguments. -/
theorem weights_eq (m : (ℓ : Loc nD τ sig) → Buf (Elt Ideal) ℓ) (c : Dev nD) :
    Value.res_out1 m c = weights (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  show Value.res_main_v26 m c = _
  unfold Value.res_main_v26
  rw [dense_eq, dense_eq, scores_eq, softmax_eq]
  rfl

/-- The reference's first result is the attention output of the arguments. -/
theorem output_eq (m : (ℓ : Loc nD τ sig) → Buf (Elt Ideal) ℓ) (c : Dev nD) :
    Value.res_out0 m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  show Value.res_main_v28 m c = _
  unfold Value.res_main_v28
  rw [dense_eq, dense_eq, dense_eq, scores_eq, softmax_eq]
  rfl

end Cert.ReferenceIdeal.RefValue

end
-- ==== Proof.lean ====
/-
  Self-attention in two kernels against its jnp definition, equal on the extended reals.

  The kernel program projects the input to Q, K, V in one row-tiled kernel (x · W + b, 512 rows a point) and, in a second
  (256 rows of Q a point, K and V whole), forms the scores (Q · Kᵀ) · c, subtracts each row's maximum, exponentiates,
  divides by the row's sum — the attention weights — and multiplies by V; the host views the output's 1024 columns as
  32 × 32. The reference does the same on whole arrays, except that it DIVIDES the scores by the f32 number
  D = 11863283 / 2²¹. The kernel's scale is named c = 2097152 / 11863283 = 1 / D, and x / D = x · (1 / D) on every extended
  real, so the two score arrays are one function; every later operation is the same on both sides. A row-tiled matrix
  product reads only its own rows of the left operand, and a row's maximum and sum stay inside the row, so each kernel's
  blocks are the rows of the whole-array functions and tile them. Changes of float format are the identity. No finiteness
  of the inputs is used.

  The three frames are the programs' runs with the results dropped; `preserves` is the one named constant's statement.
-/
import proofs.«121798_j6768868458538_1_alg».proof.Defs
import proofs.«121798_j6768868458538_1_alg».proof.Proof.Gen.Kernel
import proofs.«121798_j6768868458538_1_alg».proof.Proof.Gen.Kernel.Skeleton
import proofs.«121798_j6768868458538_1_alg».proof.Proof.Gen.Kernel.Launch
import proofs.«121798_j6768868458538_1_alg».proof.Proof.Gen.Kernel.Points
import proofs.«121798_j6768868458538_1_alg».proof.Proof.Gen.Kernel.Frame
import proofs.«121798_j6768868458538_1_alg».proof.Proof.Gen.KernelIdeal
import proofs.«121798_j6768868458538_1_alg».proof.Proof.Gen.KernelIdeal.Skeleton
import proofs.«121798_j6768868458538_1_alg».proof.Proof.Gen.KernelIdeal.Launch
import proofs.«121798_j6768868458538_1_alg».proof.Proof.Gen.KernelIdeal.Points
import proofs.«121798_j6768868458538_1_alg».proof.Proof.Gen.KernelIdeal.Frame
import proofs.«121798_j6768868458538_1_alg».proof.Proof.Gen.ReferenceIdeal
import proofs.«121798_j6768868458538_1_alg».proof.Proof.Gen.ReferenceIdeal.Run
import proofs.«121798_j6768868458538_1_alg».proof.Proof.Gen.Pre_finite_inputs
import proofs.«121798_j6768868458538_1_alg».proof.Proof.KernelValue
import proofs.«121798_j6768868458538_1_alg».proof.Proof.RefValue
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's scale word read as c = 2097152 / 11863283, the table's value. -/
theorem preserves : Cert.preserves_Kernel_KernelIdeal :=
  IdealRules.named_const.statement Cert.KernelIdeal.κ "inv_d_k" .f32 0x3E3504F3#32 ((2097152 / 11863283 : ℝ) : EReal) rfl

/-- Both programs end with the attention output and the attention weights of the arguments. -/
theorem algebraic : Cert.algebraic_KernelIdeal_ReferenceIdeal := by
  intro m ρ m' ρ' _ hagree
  refine ⟨fun c => output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.output_eq m' c).trans ?_
    rw [(hagree c).1, (hagree c).2.1, (hagree c).2.2.1, (hagree c).2.2.2.1, (hagree c).2.2.2.2.1, (hagree c).2.2.2.2.2.1,
      (hagree c).2.2.2.2.2.2]
  · refine (Cert.ReferenceIdeal.RefValue.weights_eq m' c).trans ?_
    rw [(hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
